-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S128x1024 : Shape := ⟨2, ![128, 1024]⟩
abbrev S50257x1024 : Shape := ⟨2, ![50257, 1024]⟩
abbrev S128x2048 : Shape := ⟨2, ![128, 2048]⟩
abbrev S128 : Shape := ⟨1, ![128]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S128 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S128x1024 .f32) (main_arg3 : FVec F S50257x1024 .f32) (main_arg4 : FVec F S128x2048 .f32) (main_arg5 : FVec F S128 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S128x2048 .f32 := Host.absf main_arg4
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S128x1024 : Shape := ⟨2, ![128, 1024]⟩
abbrev S50257x1024 : Shape := ⟨2, ![50257, 1024]⟩
abbrev S128x2048 : Shape := ⟨2, ![128, 2048]⟩
abbrev S128 : Shape := ⟨1, ![128]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x128 : Shape := ⟨2, ![2048, 128]⟩
abbrev S1x128 : Shape := ⟨2, ![1, 128]⟩
abbrev S2048x1024 : Shape := ⟨2, ![2048, 1024]⟩
abbrev S1024x3072 : Shape := ⟨2, ![1024, 3072]⟩
abbrev S1x3072 : Shape := ⟨2, ![1, 3072]⟩
abbrev S1x50257 : Shape := ⟨2, ![1, 50257]⟩
abbrev S4096x1024 : Shape := ⟨2, ![4096, 1024]⟩
abbrev S1x4096 : Shape := ⟨2, ![1, 4096]⟩

abbrev nBuf : Space → Nat
  | .hbm => 111
  | .vmem => 7
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128x1024, .f32⟩
  | .hbm, ⟨3, _⟩ => ⟨S50257x1024, .f32⟩
  | .hbm, ⟨4, _⟩ => ⟨S128x2048, .f32⟩
  | .hbm, ⟨5, _⟩ => ⟨S128, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x128, .f32⟩
  | .hbm, ⟨42, _⟩ => ⟨S1x128, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x50257, .f32⟩
  | .hbm, ⟨94, _⟩ => ⟨S1x50257, .f32⟩
  | .hbm, ⟨95, _⟩ => ⟨S_, .f32⟩
  | .hbm, ⟨96, _⟩ => ⟨S1, .f32⟩
  | .hbm, ⟨97, _⟩ => ⟨S_, .f32⟩
  | .hbm, ⟨98, _⟩ => ⟨S1, .f32⟩
  | .hbm, ⟨99, _⟩ => ⟨S1, .f32⟩
  | .hbm, ⟨100, _⟩ => ⟨S1x1, .f32⟩
  | .hbm, ⟨101, _⟩ => ⟨S1x50257, .f32⟩
  | .hbm, ⟨102, _⟩ => ⟨S1x50257, .f32⟩
  | .hbm, ⟨103, _⟩ => ⟨S1x50257, .f32⟩
  | .hbm, ⟨104, _⟩ => ⟨S_, .f32⟩
  | .hbm, ⟨105, _⟩ => ⟨S1, .f32⟩
  | .hbm, ⟨106, _⟩ => ⟨S1x1, .f32⟩
  | .hbm, ⟨107, _⟩ => ⟨S1x1, .f32⟩
  | .hbm, ⟨108, _⟩ => ⟨S1x50257, .f32⟩
  | .hbm, ⟨109, _⟩ => ⟨S1x50257, .f32⟩
  | .hbm, ⟨110, _⟩ => ⟨S1x1x1024, .f32⟩
  | .local _ .vmem, ⟨0, _⟩ => ⟨S1x1024, .f32⟩
  | .local _ .vmem, ⟨1, _⟩ => ⟨S4096x1024, .f32⟩
  | .local _ .vmem, ⟨2, _⟩ => ⟨S4096x1024, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_cst : Ref sig .tc := ⟨.hbm, 95, rfl⟩
abbrev main_call1_v0 : Ref sig .tc := ⟨.hbm, 96, rfl⟩
abbrev main_call1_cst_0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_cst_1 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_v69 : Ref sig .tc := ⟨.hbm, 109, rfl⟩
abbrev main_v70 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S128x2048_S2048x128_1_0 : S128x2048.Transposes [1, 0] S2048x128
  bcast_S128_S1x128_1 : S128.BroadcastsInDim S1x128 (![1] : Fin 1 → Fin S1x128.rank)
  reducesTo_S1x128_S1_d1 : S1x128.ReducesTo [1] S1
  h_S_ : 0 < S_.numel
  bcast_S1x1_S1x128_0_1 : S1x1.BroadcastsInDim S1x128 (![0, 1] : Fin 2 → Fin S1x128.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S4096x1024_S4096x1024_0_0 : ∀ a, (![0, 0] : Fin 2 → Nat) a + S4096x1024.size a ≤ S4096x1024.size a
  h_S4096x1024 : 0 < S4096x1024.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x128_S1x128_1_0_0_1_n_n_wf : DotDims.WF S1x2048 S2048x128 S1x128 [1] [0] [0] [1] [] []
  dot_S1x128_S128x1024_S1x1024_1_0_0_1_n_n_wf : DotDims.WF S1x128 S128x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S4096x1024_S1x4096_1_1_0_0_n_n_wf : DotDims.WF S1x1024 S4096x1024 S1x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x1024.size a < S50257x1024.size a
  hwx0_1 : ∀ i : grid0.Coords, EltTy.bits .f32 = 32 ∨ (Rect.unit (s := S50257x1024) (fun a => cc0_transform_1 i a * S4096x1024.size a) (fun a => (Pipeline.Clip.of (cc0_transform_1 i a) (S4096x1024.size a) (S50257x1024.size a)).extent (S4096x1024.size a)) fun a => Pipeline.Clip.inb (Pipeline.Clip.ok_of (hstart0_1 i a))).WholeWords (EltTy.packing .f32)
  hwxs0_1 : ∀ i : grid0.Coords, EltTy.bits .f32 = 32 ∨ (Rect.unit (s := S4096x1024) (fun _ => 0) (fun a => (Pipeline.Clip.of (cc0_transform_1 i a) (S4096x1024.size a) (S50257x1024.size a)).extent (S4096x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x4096.size a < S1x50257.size a
  hwx0_2 : ∀ i : grid0.Coords, EltTy.bits .f32 = 32 ∨ (Rect.unit (s := S1x50257) (fun a => cc0_transform_2 i a * S1x4096.size a) (fun a => (Pipeline.Clip.of (cc0_transform_2 i a) (S1x4096.size a) (S1x50257.size a)).extent (S1x4096.size a)) fun a => Pipeline.Clip.inb (Pipeline.Clip.ok_of (hstart0_2 i a))).WholeWords (EltTy.packing .f32)
  hwxs0_2 : ∀ i : grid0.Coords, EltTy.bits .f32 = 32 ∨ (Rect.unit (s := S1x4096) (fun _ => 0) (fun a => (Pipeline.Clip.of (cc0_transform_2 i a) (S1x4096.size a) (S1x50257.size a)).extent (S1x4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x4096.size a < S1x50257.size a
  hwx0_3 : ∀ i : grid0.Coords, EltTy.bits .f32 = 32 ∨ (Rect.unit (s := S1x50257) (fun a => cc0_transform_3 i a * S1x4096.size a) (fun a => (Pipeline.Clip.of (cc0_transform_3 i a) (S1x4096.size a) (S1x50257.size a)).extent (S1x4096.size a)) fun a => Pipeline.Clip.inb (Pipeline.Clip.ok_of (hstart0_3 i a))).WholeWords (EltTy.packing .f32)
  hwxs0_3 : ∀ i : grid0.Coords, EltTy.bits .f32 = 32 ∨ (Rect.unit (s := S1x4096) (fun _ => 0) (fun a => (Pipeline.Clip.of (cc0_transform_3 i a) (S1x4096.size a) (S1x50257.size a)).extent (S1x4096.size a)) fun a => (Nat.zero_add _).trans_le (Pipeline.Clip.extent_le (Pipeline.Clip.ok_of (hstart0_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf

abbrev win0_0 : Pipeline.Window sig grid0 :=
  Pipeline.Window.ofSpec (Memref.whole main_v66) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg12) S4096x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v67) S1x4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v68) S1x4096.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S128x1024 : Shape := ⟨2, ![128, 1024]⟩
abbrev S50257x1024 : Shape := ⟨2, ![50257, 1024]⟩
abbrev S128x2048 : Shape := ⟨2, ![128, 2048]⟩
abbrev S128 : Shape := ⟨1, ![128]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x128 : Shape := ⟨2, ![2048, 128]⟩
abbrev S1x128 : Shape := ⟨2, ![1, 128]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128x1024, .f32⟩
  | .hbm, ⟨3, _⟩ => ⟨S50257x1024, .f32⟩
  | .hbm, ⟨4, _⟩ => ⟨S128x2048, .f32⟩
  | .hbm, ⟨5, _⟩ => ⟨S128, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x128, .f32⟩
  | .hbm, ⟨42, _⟩ => ⟨S1x128, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S128x2048_S2048x128_1_0 : S128x2048.Transposes [1, 0] S2048x128
  bcast_S128_S1x128_1 : S128.BroadcastsInDim S1x128 (![1] : Fin 1 → Fin S1x128.rank)
  reducesTo_S1x128_S1_d1 : S1x128.ReducesTo [1] S1
  h_S_ : 0 < S_.numel
  bcast_S1x1_S1x128_0_1 : S1x1.BroadcastsInDim S1x128 (![0, 1] : Fin 2 → Fin S1x128.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x128_S1x128_1_0_0_1_n_n_wf : DotDims.WF S1x2048 S2048x128 S1x128 [1] [0] [0] [1] [] []
  dot_S1x128_S128x1024_S1x1024_1_0_0_1_n_n_wf : DotDims.WF S1x128 S128x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.KernelFrame.lean ====
/-
  The frame of the word-level program: it runs to its end, faults nowhere and leaves its fourteen argument arrays as they
  were. The program is host arithmetic (the embedding row, the attention weights, the gated recurrent step), then ONE
  pipelined kernel over thirteen tiles of 4096 vocabulary columns, then the host's log-softmax. The kernel at a tile loads
  the hidden row [1,1024], the tile's 4096 rows of the output matrix and the tile's 4096 bias entries, forms the row of
  inner products plus the bias and stores it whole into the result's staging block.
  13 * 4096 = 53248 exceeds the 50257 columns: the LAST tile overhangs. Its fetches land only the 1105 rows (entries) that
  exist, the rest of the staging block holding words nothing names, and its write-back moves only the first 1105 entries.
  At the word level the matrix product of this precision is an uninterpreted function of its whole operands, so what the
  last tile's result holds on its first 1105 entries cannot be separated from the unnamed words. The frame does not need
  it: every window's staging contents are left unnamed here, the body is shown only to run safely on any contents, and
  an input array is never written whatever the body leaves in the staging blocks.
-/
import proofs.«172690_j36335423324794_2_alg».proof.Proof.Gen.Kernel.Frame
import proofs.«172690_j36335423324794_2_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole staging blocks -/

/-- The whole hidden row, the whole tile of matrix rows, the whole row of 4096 entries: each access of the body is
    through the rectangle at offset zero of the block's own extents. -/
abbrev rHid : Rect S1x1024 := Rect.unit (s := S1x1024) ![0, 0] S1x1024.size inb_S1x1024_S1x1024_0_0
abbrev rMat : Rect S4096x1024 := Rect.unit (s := S4096x1024) ![0, 0] S4096x1024.size inb_S4096x1024_S4096x1024_0_0
abbrev rRow : Rect S1x4096 := Rect.unit (s := S1x4096) ![0, 0] S1x4096.size inb_S1x4096_S1x4096_0_0

/-- What the one store leaves in the result's staging block, from the three input blocks. -/
def tileOut (x0 : Vec F S1x1024 .f32) (x1 : Vec F S4096x1024 .f32) (x2 : Vec F S1x4096 .f32) : Vec F S1x4096 .f32 :=
  View.canon [⟨rRow, k0_pay1 (View.ld x0 rHid) (View.ld x1 rMat) (View.ld x2 rRow)⟩]

theorem zeros2 : (![0, 0] : Fin 2 → Nat) = fun _ => 0 := funext fun a => by fin_cases a <;> rfl

/-- The store is of the whole block, so the block ends holding the stored row: inner products plus bias. -/
theorem tileOut_eq (x0 : Vec F S1x1024 .f32) (x1 : Vec F S4096x1024 .f32) (x2 : Vec F S1x4096 .f32) :
    tileOut x0 x1 x2 = k0_pay1 x0 x1 x2 := by
  unfold tileOut
  rw [View.canon_unit_zero zeros2]
  rw [View.ld_unit_zero (S := S1x1024) zeros2, View.ld_unit_zero (S := S4096x1024) zeros2,
    View.ld_unit_zero (S := S1x4096) zeros2]

theorem cover_row (p0 : Vec F S1x4096 .f32) (y : S1x4096.Idx) :
    ∃ pc ∈ ([⟨rRow, p0⟩] : List (View.Piece (Elt F) S1x4096 .f32)), y ∈ pc.1.set :=
  ⟨_, List.mem_singleton_self _, View.mem_set_unit_zero zeros2 inb_S1x4096_S1x4096_0_0 y⟩

set_option maxHeartbeats 1000000 in
/-- The body, on whole staging memrefs holding `x0`, `x1`, `x2` and (the result's) anything: three loads, the row of
    inner products plus bias, a load of the result's block that nothing reads, and the store of the row. The inputs'
    blocks are left as they were and the result's holds the row. -/
theorem sound_kernel (c : Dev nD) (E : Set ℕ) (i : grid0.Coords)
    (arg1 : Memref sig .tc .vmem S1x1024 .f32) (harg1 : arg1.IsWhole)
    (arg2 : Memref sig .tc .vmem S4096x1024 .f32) (harg2 : arg2.IsWhole)
    (arg3 : Memref sig .tc .vmem S1x4096 .f32) (harg3 : arg3.IsWhole)
    (arg4 : Memref sig .tc .vmem S1x4096 .f32) (harg4 : arg4.IsWhole)
    (x0 : Vec F S1x1024 .f32) (x1 : Vec F S4096x1024 .f32) (x2 : Vec F S1x4096 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (tileOut x0 x1 x2)) -∗ K ⟨⟩))
      ⊢ wp frame (wpE (defs₀ (F := F)) Variants.none c none) E
          (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_row _)

/-! ## The proof data: every staging block unnamed -/

/-- The arrays as the region finds them; nothing named of what the body leaves; the class's invariant (the scoped rest
    and the generator register, untouched); full shares; nothing owed. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q _ := fullShare
  owed _ := 0

/-- What the body is called with at a point when every window is left unnamed: each current staging block at some contents, -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

/-- and what it hands back: the same, at some contents. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

/-- The body runs at every point on whatever the four staging blocks hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩⟩
  iapply (sound_kernel c Set.univ (grid0.coords t) _ _ _ _ _ _ _ _ X0 X1 X2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-- The pipeline's body obligation with all four windows left unnamed. -/
theorem body_obligation (c : Dev nD) :
    BodyObligationLoose (dats (F := F) m 0 c) (defs₀ (F := F)) Variants.none () Set.univ (fun _ => true) := fun t => by
  rw [bigSep_W0]; try rw [bigSep_W0]
  exact sound_body m c t

/-! ## The host lines after the kernel -/

/-- The buffers the log-softmax and the final reshaping write: their own results. -/
def tailOut : Finset (Ref sig .tc) :=
  {main_call1_cst, main_call1_v0, main_call1_cst_0, main_call1_v1, main_call1_v2, main_call1_v3, main_call1_v4,
    main_call1_v5, main_call1_v6, main_call1_cst_1, main_call1_v7, main_call1_v8, main_call1_v9, main_call1_v10,
    main_v69, main_v70}

theorem tail_writes : ∀ ops ∈ ([hostOps1, hostOps1_1] : List (List (HloOp τ sig (Elt F)))), ∀ op ∈ ops,
    ∀ b : Ref sig .tc, Proc.devRef .tc b ∈ op.writes → b ∈ tailOut := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals
      intro b hb
      simp only [StableHlo.nullary_writes, StableHlo.unary_writes, StableHlo.binary_writes, StableHlo.ternary_writes,
        StableHlo.quaternary_writes, StableHlo.reshape_writes, StableHlo.binaryIndexed_writes, Finset.mem_singleton] at hb
      obtain rfl := Proc.devRef_injective (τ := τ) _ hb
      decide
  · simp only [hostOps1_1, List.mem_cons, List.mem_nil_iff, or_false] at hop
    rcases hop with rfl
    intro b hb
    simp only [StableHlo.nullary_writes, StableHlo.unary_writes, StableHlo.binary_writes, StableHlo.ternary_writes,
      StableHlo.quaternary_writes, StableHlo.reshape_writes, StableHlo.binaryIndexed_writes, Finset.mem_singleton] at hb
    obtain rfl := Proc.devRef_injective (τ := τ) _ hb
    decide

/-! ## The run and the frame -/

set_option backward.isDefEq.respectTransparency.types false in
/-- Every weakly fair execution of the program ends, nothing faulting; every array of the pipeline then holds contents
    the write-backs allow (an input array its entry contents), and every other buffer the tail does not write holds
    what it held when the kernel was entered. -/
theorem run_main : θ_run defs (onTc (τ := τ) (main (F := F))) (s₀ m ρ)
    (Pipeline.RDat.FramePostR cfg0 (fun c => (dats m 0 c).toRForget fun _ => true) tailOut
      (fun c b => V0 m c (Proc.devRef .tc b))) :=
  Pipeline.RDat.θ_run_frame_around_T cfgs (0 : Fin 1) launch0 defs₀ Variants.none
    (fun c => (dats m 0 c).toRForget fun _ => true) tailOut m ρ main
    (hbody := fun c => (body_obligation m c).toRForget)
    (hshare := fun c => ((dats m 0 c).toRForget fun _ => true).share_full fun _ => rfl) (howed := fun _ _ => rfl)
    (V₀ := V0 m) (opss := [hostOps1, hostOps1_1]) (hsub := sfx_sub) (hfresh := sfx_fresh) (hkeep := sfx_keeps)
    (hT := tail_writes)
    (hmain := hmain m Variants.none) (hA := fun _ _ => rfl) (hΦ := fun _ _ => rfl)

/-- The frame: thirteen of the arguments are buffers no window stages and no host line writes; the output matrix is
    an INPUT array of the pipeline, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      (Eq.mp (congrFun (Pipeline.RDat.ArrAt_in (rd := (dats m 0 c).toRForget fun _ => true) 1 rfl cfg0.N) _) ((h c).1 1)).trans (V_main_arg12 m c),
      ((h c).2 main_arg13 (Finset.mem_sdiff.mpr ⟨Pipeline.mem_restRefs_of main_arg13 (by decide) (by decide), by decide⟩)).trans (V_main_arg13 m c)⟩) (run_main m ρ)

end Cert.Kernel.Hand

end
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.IdealKernel.lean ====
/-
  The idealized kernel program: its frame, and what its three results hold. The program is host arithmetic (the embedding
  row, the attention weights, the gated recurrent step giving the hidden row h), then ONE pipelined kernel over thirteen
  tiles of 4096 vocabulary columns, then the host's log-softmax. At a tile the kernel stores, for each of its columns q, the
  inner product of h with row q of the tile of the output matrix, plus the bias entry q.
  13 * 4096 = 53248 exceeds the 50257 columns: the last tile overhangs, its fetches land only the 1105 rows (entries)
  that exist and its write-back moves only the first 1105 entries. Over the extended reals the product is a plain sum, so
  column q of a tile depends on row q of the matrix tile and entry q of the bias tile alone: the entries past the arrays'
  end never reach a column that is written back. Hence every column j of the logits array ends at
  (sum over k of h k * W j k) + b j, and the tail's log-softmax is applied to that.
-/
import proofs.«172690_j36335423324794_2_alg».proof.Proof.Gen.KernelIdeal.Frame
import proofs.«172690_j36335423324794_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Tactic
import Idealize.ShloMosaic.Lib.ValueIdx
import Idealize.ShloMosaic.PureOps.Ideal.Laws
import proofs.«172690_j36335423324794_2_alg».proof.Proof.LibDotRows

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx
open scoped BigOperators

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole staging blocks -/

/-- The whole hidden row, the whole tile of matrix rows, the whole row of 4096 entries: each access of the body is
    through the rectangle at offset zero of the block's own extents. -/
abbrev rHid : Rect S1x1024 := Rect.unit (s := S1x1024) ![0, 0] S1x1024.size inb_S1x1024_S1x1024_0_0
abbrev rMat : Rect S4096x1024 := Rect.unit (s := S4096x1024) ![0, 0] S4096x1024.size inb_S4096x1024_S4096x1024_0_0
abbrev rRow : Rect S1x4096 := Rect.unit (s := S1x4096) ![0, 0] S1x4096.size inb_S1x4096_S1x4096_0_0

/-- What the one store leaves in the result's staging block, from the three input blocks. -/
def tileOut (x0 : Vec F S1x1024 .f32) (x1 : Vec F S4096x1024 .f32) (x2 : Vec F S1x4096 .f32) : Vec F S1x4096 .f32 :=
  View.canon [⟨rRow, k0_pay1 (View.ld x0 rHid) (View.ld x1 rMat) (View.ld x2 rRow)⟩]

theorem zeros2 : (![0, 0] : Fin 2 → Nat) = fun _ => 0 := funext fun a => by fin_cases a <;> rfl

/-- The store is of the whole block, so the block ends holding the stored row: inner products plus bias. -/
theorem tileOut_eq (x0 : Vec F S1x1024 .f32) (x1 : Vec F S4096x1024 .f32) (x2 : Vec F S1x4096 .f32) :
    tileOut x0 x1 x2 = k0_pay1 x0 x1 x2 := by
  unfold tileOut
  rw [View.canon_unit_zero zeros2]
  rw [View.ld_unit_zero (S := S1x1024) zeros2, View.ld_unit_zero (S := S4096x1024) zeros2,
    View.ld_unit_zero (S := S1x4096) zeros2]

theorem cover_row (p0 : Vec F S1x4096 .f32) (y : S1x4096.Idx) :
    ∃ pc ∈ ([⟨rRow, p0⟩] : List (View.Piece (Elt F) S1x4096 .f32)), y ∈ pc.1.set :=
  ⟨_, List.mem_singleton_self _, View.mem_set_unit_zero zeros2 inb_S1x4096_S1x4096_0_0 y⟩

set_option maxHeartbeats 1000000 in
/-- The body, on whole staging memrefs holding `x0`, `x1`, `x2` and (the result's) anything: three loads, the row of
    inner products plus bias, a load of the result's block that nothing reads, and the store of the row. The inputs'
    blocks are left as they were and the result's holds the row. -/
theorem sound_kernel (c : Dev nD) (E : Set ℕ) (i : grid0.Coords)
    (arg1 : Memref sig .tc .vmem S1x1024 .f32) (harg1 : arg1.IsWhole)
    (arg2 : Memref sig .tc .vmem S4096x1024 .f32) (harg2 : arg2.IsWhole)
    (arg3 : Memref sig .tc .vmem S1x4096 .f32) (harg3 : arg3.IsWhole)
    (arg4 : Memref sig .tc .vmem S1x4096 .f32) (harg4 : arg4.IsWhole)
    (x0 : Vec F S1x1024 .f32) (x1 : Vec F S4096x1024 .f32) (x2 : Vec F S1x4096 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (tileOut x0 x1 x2)) -∗ K ⟨⟩))
      ⊢ wp frame (wpE (defs₀ (F := F)) Variants.none c none) E
          (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_row _)

/-! ## A stored tile, column by column -/

/-- Over the extended reals, column `q` of what the body stores is the inner product of the hidden row with row `q` of
    the matrix tile, plus entry `q` of the bias tile. -/
theorem tile_apply (X0 : Vec Ideal S1x1024 .f32) (X1 : Vec Ideal S4096x1024 .f32) (X2 : Vec Ideal S1x4096 .f32) (q : Fin 4096) :
    tileOut X0 X1 X2 (ix2 0 q) = (∑ k : Fin 1024, X0 (ix2 0 k) * X1 (ix2 q k)) + X2 (ix2 0 q) := by
  rw [tileOut_eq]
  unfold k0_pay1
  simp only [shapeCast_self]
  refine (addf_apply _ _ _).trans ?_
  exact congrArg (· + X2 (ix2 0 q))
    (Cert.LibDotRows.matmul_zero_apply dot_S1x1024_S4096x1024_S1x4096_1_1_0_0_n_n ⟨rfl, rfl, rfl, rfl, rfl, rfl⟩ (some .fp32) X0 X1 0 q)

/-! ## The tiles' positions, decided once over the grid -/

/-- At point `t`: the hidden row's block is the whole row; the matrix tile is rows `4096 t …`, the bias and result tiles are
    columns `4096 t …`; the three tiled windows are cut alike, to the `min 4096 (50257 - 4096 t)` columns that exist. -/
theorem gridFacts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_1.xsize (grid0.coords t) (0 : Fin 2) = win0_3.xsize (grid0.coords t) (1 : Fin 2)
    ∧ win0_1.xsize (grid0.coords t) (1 : Fin 2) = 1024
    ∧ win0_2.xsize (grid0.coords t) (0 : Fin 2) = 1
    ∧ win0_2.xsize (grid0.coords t) (1 : Fin 2) = win0_3.xsize (grid0.coords t) (1 : Fin 2)
    ∧ win0_3.xsize (grid0.coords t) (0 : Fin 2) = 1
    ∧ win0_3.xsize (grid0.coords t) (1 : Fin 2) = min 4096 (50257 - 4096 * t.val) :=
  (by decide +kernel : ∀ t : Fin grid0.N, _)

variable (m : (ℓ : Loc nD τ sig) → Buf (Elt Ideal) ℓ) (ρ : Dev nD → PrngReg)

/-! ## The logits -/

/-- Column `j` of the logits: the inner product of the hidden row with row `j` of the output matrix, plus bias entry `j`. -/
def logits (h : S1x1024.Idx → EReal) (W : S50257x1024.Idx → EReal) (b : S1x50257.Idx → EReal) : S1x50257.Idx → EReal :=
  fun j => (∑ k : Fin 1024, h (ix2 0 k) * W (ix2 (j 1) k)) + b j

/-- The logits of the arrays the kernel is launched on: the hidden row the host computed, the output matrix, the bias
    laid out as a row. -/
def G (c : Dev nD) : S1x50257.Idx → EReal :=
  logits (V m c main_v66) (V m c main_arg12) (V m c main_v67)

/-! ## The blocks, read at an index -/

/-- The hidden row's block is the row itself at every point. -/
theorem hid_read (c : Dev nD) (t : Fin cfg0.N) (k : Fin 1024) :
    iblk m c 0 t (ix2 0 k) = (V m c main_v66 : S1x1024.Idx → EReal) (ix2 0 k) := by
  obtain ⟨e00, e01, -⟩ := gridFacts t
  unfold iblk
  show V m c main_v66 (((cfg0.win 0).blk t).view.emb (ix2 0 k)) = _
  refine congrArg _ (funext fun a => Fin.ext ?_)
  match a with
  | ⟨0, _⟩ => show win0_0.index t (0 : Fin 2) * 1 + 1 * 0 = 0; omega
  | ⟨1, _⟩ => show win0_0.index t (1 : Fin 2) * 1024 + 1 * k.val = k.val; omega

/-- Row `q` of the matrix tile at point `t`, when it exists, is row `4096 t + q` of the output matrix — whatever the
    staging block held before the fetch. -/
theorem mat_read (c : Dev nD) (t : Fin cfg0.N) (d : S4096x1024.Idx → EReal) (q : Fin 4096) (k : Fin 1024)
    (hq : q.val < win0_3.xsize (grid0.coords t) (1 : Fin 2)) (hcol : 4096 * t.val + q.val < 50257) :
    (cfg0.win 1).fill (grid0.coords t) d (iblk m c 1 t) (ix2 q k)
      = (V m c main_arg12 : S50257x1024.Idx → EReal) (ix2 ⟨4096 * t.val + q.val, hcol⟩ k) := by
  obtain ⟨-, -, e10, e11, -, -, -, -, x10, x11, -⟩ := gridFacts t
  have hmv : win0_1.moved (grid0.coords t) (ix2 q k) = true := (win0_1.moved_iff _ _).mpr fun a => by
    match a with
    | ⟨0, _⟩ => show q.val < win0_1.xsize (grid0.coords t) (0 : Fin 2); omega
    | ⟨1, _⟩ => show k.val < win0_1.xsize (grid0.coords t) (1 : Fin 2); have := k.isLt; omega
  show win0_1.fill (grid0.coords t) d (iblk m c 1 t) (ix2 q k) = _
  unfold Window.fill
  rw [dif_pos hmv]
  unfold iblk
  show V m c main_arg12 (((cfg0.win 1).blk t).view.emb _) = _
  refine congrArg _ (funext fun a => Fin.ext ?_)
  match a with
  | ⟨0, _⟩ => show win0_1.index t (0 : Fin 2) * 4096 + 1 * q.val = 4096 * t.val + q.val; omega
  | ⟨1, _⟩ => show win0_1.index t (1 : Fin 2) * 1024 + 1 * k.val = k.val; omega

/-- Entry `q` of the bias tile at point `t`, when it exists, is entry `4096 t + q` of the bias row. -/
theorem bias_read (c : Dev nD) (t : Fin cfg0.N) (d : S1x4096.Idx → EReal) (q : Fin 4096)
    (hq : q.val < win0_3.xsize (grid0.coords t) (1 : Fin 2)) (hcol : 4096 * t.val + q.val < 50257) :
    (cfg0.win 2).fill (grid0.coords t) d (iblk m c 2 t) (ix2 0 q)
      = (V m c main_v67 : S1x50257.Idx → EReal) (ix2 0 ⟨4096 * t.val + q.val, hcol⟩) := by
  obtain ⟨-, -, -, -, e20, e21, -, -, -, -, x20, x21, -⟩ := gridFacts t
  have hmv : win0_2.moved (grid0.coords t) (ix2 0 q) = true := (win0_2.moved_iff _ _).mpr fun a => by
    match a with
    | ⟨0, _⟩ => show 0 < win0_2.xsize (grid0.coords t) (0 : Fin 2); omega
    | ⟨1, _⟩ => show q.val < win0_2.xsize (grid0.coords t) (1 : Fin 2); omega
  show win0_2.fill (grid0.coords t) d (iblk m c 2 t) (ix2 0 q) = _
  unfold Window.fill
  rw [dif_pos hmv]
  unfold iblk
  show V m c main_v67 (((cfg0.win 2).blk t).view.emb _) = _
  refine congrArg _ (funext fun a => Fin.ext ?_)
  match a with
  | ⟨0, _⟩ => show win0_2.index t (0 : Fin 2) * 1 + 1 * 0 = 0; omega
  | ⟨1, _⟩ => show win0_2.index t (1 : Fin 2) * 4096 + 1 * q.val = 4096 * t.val + q.val; omega

/-- Block `t` of the logits, read at a column of the block, is the logits at column `4096 t +` that. -/
theorem logits_read (c : Dev nD) (t : Fin cfg0.N) (y : ((cfg0.win 3).xblock (grid0.coords t)).Idx)
    (hcol : 4096 * t.val + (y 1).val < 50257) :
    ((cfg0.win 3).blk t).view.read (Elt Ideal) (G m c) y = G m c (ix2 0 ⟨4096 * t.val + (y 1).val, hcol⟩) := by
  obtain ⟨-, -, -, -, -, -, e30, e31, -, -, -, -, x30, -⟩ := gridFacts t
  have hy0 : (y 0).val < win0_3.xsize (grid0.coords t) (0 : Fin 2) := (y 0).isLt
  show G m c (((cfg0.win 3).blk t).view.emb y) = _
  refine congrArg _ (funext fun a => Fin.ext ?_)
  match a with
  | ⟨0, _⟩ => show win0_3.index t (0 : Fin 2) * 1 + 1 * (y 0).val = 0; omega
  | ⟨1, _⟩ => show win0_3.index t (1 : Fin 2) * 4096 + 1 * (y 1).val = 4096 * t.val + (y 1).val; omega

local notation "𝕄ᵢ" => MT nD τ sig Unit (Elt Ideal) ℕ (UR sig nD τ) ℕ

/-! ## The proof data -/

/-- The arrays as the kernel finds them. After the body at point `t`: the hidden row's block; the matrix and bias tiles
    as fetched (named on the part that exists, zero elsewhere: nothing reads that part of the name); the result's
    block at the logits' tile. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => win0_3.fill (grid0.coords t) (fun _ => (0 : EReal)) (((cfg0.win 3).blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) :
    (dats m 0 c).after 2 t = win0_2.fill (grid0.coords t) (fun _ => (0 : EReal)) (iblk m c 2 t) := by dsimp only [dats]
theorem after0_3 (c : Dev nD) (t : Fin cfg0.N) :
    (dats m 0 c).after 3 t
      = win0_3.fill (grid0.coords t) (fun _ => (0 : EReal)) (((cfg0.win 3).blk t).view.read (Elt Ideal) (G m c)) := by
  dsimp only [dats]

/-- The hidden row's buffer holds the row at every point, fetched there or not. -/
theorem before0_0 (c : Dev nD) (t : Fin cfg0.N) (d) : (dats m 0 c).before 0 t d = iblk m c 0 t :=
  before0_0_of m (dats m 0 c) (A_eq m c 0) (after0_0 m c) t d

/-- The matrix tile's buffer was just fetched: the tile on the rows that exist, what was there before elsewhere. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- The bias tile's likewise. -/
theorem before0_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]

/-! ## What the body stores is the logits' tile, on the columns that exist -/

/-- Column by column: the stored row at a column that is written back reads only row `q` of the matrix tile and entry
    `q` of the bias tile, both inside the arrays; what the staging blocks hold past the arrays' end does not enter. -/
theorem tile_cut (c : Dev nD) (t : Fin cfg0.N) (d1 : S4096x1024.Idx → EReal) (d2 : S1x4096.Idx → EReal) :
    win0_3.cut (grid0.coords t) (tileOut (iblk m c 0 t) (win0_1.fill (grid0.coords t) d1 (iblk m c 1 t))
        (win0_2.fill (grid0.coords t) d2 (iblk m c 2 t)))
      = ((cfg0.win 3).blk t).view.read (Elt Ideal) (G m c) := by
  funext y
  obtain ⟨-, -, -, -, -, -, -, -, -, -, -, -, x30, x31⟩ := gridFacts t
  have hy0 : (y 0).val < win0_3.xsize (grid0.coords t) (0 : Fin 2) := (y 0).isLt
  have hy1 : (y 1).val < win0_3.xsize (grid0.coords t) (1 : Fin 2) := (y 1).isLt
  have ht : t.val < 13 := t.isLt
  have hq : (y 1).val < 4096 := by omega
  have hcol : 4096 * t.val + (y 1).val < 50257 := by omega
  have hp : win0_3.xinj (grid0.coords t) y = ix2 0 ⟨(y 1).val, hq⟩ := funext fun a => Fin.ext (by
    match a with
    | ⟨0, _⟩ => show (y 0).val = 0; omega
    | ⟨1, _⟩ => rfl)
  show tileOut _ _ _ (win0_3.xinj (grid0.coords t) y) = _
  rw [hp, tile_apply, logits_read m c t y hcol]
  unfold G logits
  refine congrArg₂ (· + ·) (Finset.sum_congr rfl fun k _ => ?_) ?_
  · rw [hid_read m c t k, mat_read m c t d1 ⟨(y 1).val, hq⟩ k hy1 hcol]
  · exact bias_read m c t d2 ⟨(y 1).val, hq⟩ hy1 hcol

/-! ## The body obligation -/

/-- What the body is called with at point `t`, -/
def bodyPre (c : Dev nD) (t : Fin cfg0.N) : sProp 𝕄ᵢ :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back: the hidden row's buffer as named; each tiled window's buffer as named on the part its
    transfers move. -/
def bodyPost (c : Dev nD) (t : Fin cfg0.N) : sProp 𝕄ᵢ :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, Window.cut_fill, Window.cut_fill, Window.cut_fill]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (tileOut (iblk m c 0 t) (win0_1.fill (grid0.coords t) d1 (iblk m c 1 t)) (win0_2.fill (grid0.coords t) d2 (iblk m c 2 t)))
  rw [← tile_cut m c t d1 d2, Window.fill_cut]
  iexact H3

/-- The pipeline's body obligation (the three tiled windows stated on the part their transfers move). -/
theorem body_obligation (c : Dev nD) :
    BodyObligationLoose (dats m 0 c) (defs₀ (F := Ideal)) Variants.none () Set.univ := fun t => by
  rw [bigSep_W0, bigSep_W0]
  exact sound_body m c t

/-! ## The run, the frame -/

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := body_obligation m)
    (hshare := fun c => (dats m 0 c).share_full fun _ => rfl) (howed := fun _ _ => rfl)
    (V₀ := V0 m) (opss := [hostOps1, hostOps1_1]) (hsub := sfx_sub) (hfresh := sfx_fresh) (hkeep := sfx_keeps)
    (hmain := hmain m Variants.none) (hA := A_eq m) (hΦ := fun _ _ => rfl)

/-- The frame of the idealized kernel program. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-! ## The logits array after the kernel -/

/-- What point `t` writes back is block `t` of the logits. -/
theorem flushed_eq (c : Dev nD) (t : Fin cfg0.N) :
    (dats m 0 c).flushed 3 t = ((cfg0.win 3).blk t).view.read (Elt Ideal) (G m c) := by
  show win0_3.cut (grid0.coords t) ((dats m 0 c).after 3 t) = _
  rw [after0_3, Window.cut_fill]

/-- A column is in point `t`'s block iff it is one of the block's columns that exist. -/
theorem mem_blk (t : Fin cfg0.N) (i : S1x50257.Idx) :
    i ∈ ((cfg0.win 3).blk t).view.set ↔ ∀ a : Fin 2, win0_3.index t a * S1x4096.size a ≤ (i a).val
      ∧ (i a).val < win0_3.index t a * S1x4096.size a + win0_3.xsize (grid0.coords t) a := by
  show i ∈ ((View.whole main_v68).slice (win0_3.rect t)).set ↔ _
  rw [View.set_slice_whole, Rect.mem_set_unit]
  exact Iff.rfl

/-- Every column is in the block of the point `column / 4096`. -/
theorem cover (i : S1x50257.Idx) :
    ∃ t : Fin cfg0.N, (cfg0.win 3).flush t = true ∧ i ∈ ((cfg0.win 3).blk t).view.set := by
  have h0 : (i 0).val < 1 := (i 0).isLt
  have h1 : (i 1).val < 50257 := (i 1).isLt
  refine ⟨⟨(i 1).val / 4096, by rw [show cfg0.N = 13 from N_0]; omega⟩, flush0_3 _, ?_⟩
  rw [mem_blk]
  obtain ⟨-, -, -, -, -, -, e30, e31, -, -, -, -, x30, x31⟩ := gridFacts ⟨(i 1).val / 4096, by rw [show cfg0.N = 13 from N_0]; omega⟩
  intro a
  match a with
  | ⟨0, _⟩ =>
    show win0_3.index _ (0 : Fin 2) * 1 ≤ (i 0).val ∧ (i 0).val < win0_3.index _ (0 : Fin 2) * 1 + win0_3.xsize _ (0 : Fin 2)
    rw [e30, x30]; omega
  | ⟨1, _⟩ =>
    show win0_3.index _ (1 : Fin 2) * 4096 ≤ (i 1).val ∧ (i 1).val < win0_3.index _ (1 : Fin 2) * 4096 + win0_3.xsize _ (1 : Fin 2)
    rw [e31, x31]; dsimp only; omega

/-- The result array of the kernel ends holding the logits, all 50257 columns. -/
theorem final_logits (c : Dev nD) : (dats m 0 c).arrAt 3 cfg0.N = G m c :=
  (dats m 0 c).arrAt_eq_of_cover 3 (G m c) (fun t _ => flushed_eq m c t) cover

end Cert.KernelIdeal.Hand

end
-- ==== Proof.IdealValue.lean ====
/-
  The idealized kernel program's three results: the log-softmax of the logits array the kernel leaves, the hidden row the
  host computed before it with a leading unit axis, and the attention weights.
-/
import proofs.«172690_j36335423324794_2_alg».proof.Proof.IdealKernel
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx Idealize.ShloMosaic.StableHlo
open scoped BigOperators

variable (m : (ℓ : Loc nD τ sig) → Buf (Elt Ideal) ℓ) (ρ : Dev nD → PrngReg)

/-! ## The host's tail -/

/-- The host's log-softmax of a row: `z - max z`, less the logarithm of the sum of its exponentials. -/
def logSoftmax (z : FVec Ideal S1x50257 .f32) : FVec Ideal S1x50257 .f32 :=
  subf
    (subf z (broadcastInDim S1x50257 ![0, 1] bcast_S1x1_S1x50257_0_1 (broadcastInDim S1x1 ![0] bcast_S1_S1x1_0
      (maximumf (broadcastInDim S1 ![] bcast_S_S1 (constant S_ .f32 0xFF800000#32))
        (Host.reduce FloatOps.maximumf z (constant S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd (Host.exp
        (subf z (broadcastInDim S1x50257 ![0, 1] bcast_S1x1_S1x50257_0_1 (broadcastInDim S1x1 ![0] bcast_S1_S1x1_0
          (maximumf (broadcastInDim S1 ![] bcast_S_S1 (constant S_ .f32 0xFF800000#32))
            (Host.reduce FloatOps.maximumf z (constant S_ .f32 0xFF800000#32) reducesTo_S1x50257_S1_d1 h_S_))))))
        (constant S_ .f32 0x00000000#32) reducesTo_S1x50257_S1_d1 h_S_))))

/-- After the kernel, the logits array is read at the logits, and the hidden row's array at the hidden row. -/
theorem arr_after3 (c : Dev nD) :
    Pipeline.withArrays (cfgs 0).spec c (V0 m c) (fun w => (dats m 0 c).arrAt w (cfgs 0).N) (Proc.devRef .tc main_v68) = G m c :=
  (Pipeline.withArrays_arr spec0 launch0.win.arr_inj c (V0 m c) (fun w => (dats m 0 c).arrAt w cfg0.N) 3).trans (final_logits m c)

theorem arr_after0 (c : Dev nD) :
    Pipeline.withArrays (cfgs 0).spec c (V0 m c) (fun w => (dats m 0 c).arrAt w (cfgs 0).N) (Proc.devRef .tc main_v66) = V m c main_v66 :=
  (Pipeline.withArrays_arr spec0 launch0.win.arr_inj c (V0 m c) (fun w => (dats m 0 c).arrAt w cfg0.N) 0).trans
    (((dats m 0 c).arrAt_in 0 rfl _).trans (A_eq m c 0))

/-- Contents carried to a buffer's own type and back are the contents. -/
theorem ofBuf_toBuf {T : BufTy} (x : TRef sig T) (v : T.Contents (Elt Ideal)) : x.ofBuf (x.toBuf v) = v := by
  unfold TRef.ofBuf TRef.toBuf
  rw [cast_cast]
  exact cast_eq _ _

set_option maxHeartbeats 4000000 in
/-- The host's tail at the first result, the two ends still at the buffers' own types. -/
theorem tail_out_raw (W : Valuation τ sig (Elt Ideal)) :
    StableHlo.after ([hostOps1, hostOps1_1] : List (List (HloOp τ sig (Elt Ideal)))).flatten W (Proc.devRef .tc main_v69)
      = TRef.toBuf (Val := Elt Ideal) (TRef.of (T := ⟨S1x50257, .f32⟩) main_v69) (logSoftmax (TRef.ofBuf (Val := Elt Ideal) (TRef.of (T := ⟨S1x50257, .f32⟩) main_v68)
          (W (Proc.devRef .tc main_v68)))) := by
  simp only [hostOps1, hostOps1_1, List.flatten_cons, List.flatten_nil, List.append_nil, List.cons_append, List.nil_append]
  after_results_simp
  simp only [ofBuf_toBuf]
  rfl

theorem toBuf_v69 (x : FVec Ideal S1x50257 .f32) : TRef.toBuf (Val := Elt Ideal) (TRef.of (T := ⟨S1x50257, .f32⟩) main_v69) x = x := rfl
theorem ofBuf_v68 (x : FVec Ideal S1x50257 .f32) : TRef.ofBuf (Val := Elt Ideal) (TRef.of (T := ⟨S1x50257, .f32⟩) main_v68) x = x := rfl

theorem tail_out (W : Valuation τ sig (Elt Ideal)) :
    StableHlo.after ([hostOps1, hostOps1_1] : List (List (HloOp τ sig (Elt Ideal)))).flatten W (Proc.devRef .tc main_v69)
      = logSoftmax (W (Proc.devRef .tc main_v68)) := by
  rw [tail_out_raw, toBuf_v69, ofBuf_v68]

/-- The first result: the log-softmax of the logits array the kernel left. -/
theorem res_out (c : Dev nD) :
    Pipeline.afterTail₀ cfgs (dats m) 0 (V0 m) [hostOps1, hostOps1_1] c main_v69 = logSoftmax (G m c) := by
  unfold Pipeline.afterTail₀
  rw [tail_out, arr_after3 m c]

/-- The second: the hidden row the host computed before the kernel, with a leading unit axis. -/
theorem res_hidden (c : Dev nD) :
    Pipeline.afterTail₀ cfgs (dats m) 0 (V0 m) [hostOps1, hostOps1_1] c main_v70
      = broadcastInDim S1x1x1024 ![1, 2] bcast_S1x1024_S1x1x1024_1_2 (V m c main_v66 : FVec Ideal S1x1024 .f32) := by
  unfold Pipeline.afterTail₀
  simp only [hostOps1, hostOps1_1, List.flatten_cons, List.flatten_nil, List.append_nil, List.cons_append, List.nil_append]
  after_results
  rw [arr_after0 m c]

/-- The third: the attention weights, which nothing after their computation writes. -/
theorem res_attn (c : Dev nD) :
    Pipeline.afterTail₀ cfgs (dats m) 0 (V0 m) [hostOps1, hostOps1_1] c main_v23 = V m c main_v23 := by
  unfold Pipeline.afterTail₀
  rw [StableHlo.after_of_forall_not_mem (b := Proc.devRef .tc main_v23) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v23 (by exact (by decide : ∀ w, Pipeline.arrRef spec0 w ≠ main_v23))]

/-- The kernel program's run with its three results named and its arguments unchanged. -/
theorem run_values : θ_run defs (onTc (τ := τ) (main (F := Ideal))) ⟨m, fun _ => 0, ρ⟩ (fun r => ∀ c : Dev nD,
      r.2.mem ((c.tc : Thread nD τ).loc main_v69) = logSoftmax (G m c)
      ∧ r.2.mem ((c.tc : Thread nD τ).loc main_v70)
          = broadcastInDim S1x1x1024 ![1, 2] bcast_S1x1024_S1x1x1024_1_2 (V m c main_v66 : FVec Ideal S1x1024 .f32)
      ∧ r.2.mem ((c.tc : Thread nD τ).loc main_v23) = V m c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_v69 (Pipeline.mem_restRefs_of main_v69 (by decide) (by decide))).trans (res_out m c),
      ((h c).2 main_v70 (Pipeline.mem_restRefs_of main_v70 (by decide) (by decide))).trans (res_hidden m c),
      ((h c).2 main_v23 (Pipeline.mem_restRefs_of main_v23 (by decide) (by decide))).trans (res_attn m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).1 1).trans (((dats m 0 c).arrAt_in 1 rfl _).trans ((A_eq m c 1).trans (V_main_arg12 m c))),
      ((h c).2 main_arg13 (Pipeline.mem_restRefs_of main_arg13 (by decide) (by decide))).trans (W_main_arg13 m (dats m) c)⟩) (run_main m ρ)

end Cert.KernelIdeal.Hand

end
-- ==== Proof.RefRun.lean ====
/-
  The reference program is host arithmetic only: ninety-nine operations in a line. Its run is read here in three stretches:
  the first seventy-nine compute the embedding row, the attention weights and the gated recurrent step, ending at the
  hidden row h; the next four form the logits h Wᵀ + b by one product with the transposed matrix and a bias broadcast
  along the row; the last sixteen are the log-softmax of the logits and the hidden row with a leading unit axis. The
  first stretch is never opened: what follows it is stated over the buffers it leaves.
-/
import proofs.«172690_j36335423324794_2_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024,
    binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x128 [1, 0] · transposes_S128x2048_S2048x128_1_0) : (⟨S128x2048, .f32⟩ : BufTy).Contents (Elt F) → (⟨S2048x128, .f32⟩ : BufTy).Contents (Elt F)),
    binary main_v8 main_v9 main_v10 ((fun l r => Host.dotGeneral dot_S1x2048_S2048x128_S1x128_1_0_0_1_n_n none l r) : (⟨S1x2048, .f32⟩ : BufTy).Contents (Elt F) → (⟨S2048x128, .f32⟩ : BufTy).Contents (Elt F) → (⟨S1x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    binary main_v10 main_v11 main_v12 (addf : (⟨S1x128, .f32⟩ : BufTy).Contents (Elt F) → (⟨S1x128, .f32⟩ : BufTy).Contents (Elt F) → (⟨S1x128, .f32⟩ : BufTy).Contents (Elt F)),
    nullary main_cst (constant S_ .f32 0xFF800000#32),
    binary main_v12 main_cst main_v13 ((fun x v => Host.reduce FloatOps.maximumf x v reducesTo_S1x128_S1_d1 h_S_) : (⟨S1x128, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x128 ![0, 1] bcast_S1x1_S1x128_0_1 : (⟨S1x1, .f32⟩ : BufTy).Contents (Elt F) → (⟨S1x128, .f32⟩ : BufTy).Contents (Elt F)),
    binary main_v12 main_v17 main_v18 (subf : (⟨S1x128, .f32⟩ : BufTy).Contents (Elt F) → (⟨S1x128, .f32⟩ : BufTy).Contents (Elt F) → (⟨S1x128, .f32⟩ : BufTy).Contents (Elt F)),
    unary main_v18 main_v19 (Host.exp : (⟨S1x128, .f32⟩ : BufTy).Contents (Elt F) → (⟨S1x128, .f32⟩ : BufTy).Contents (Elt F)),
    nullary main_cst_2 (constant S_ .f32 0x00000000#32),
    binary main_v19 main_cst_2 main_v20 ((fun x v => Host.reduceAdd x v reducesTo_S1x128_S1_d1 h_S_) : (⟨S1x128, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x128 ![0, 1] bcast_S1x1_S1x128_0_1 : (⟨S1x1, .f32⟩ : BufTy).Contents (Elt F) → (⟨S1x128, .f32⟩ : BufTy).Contents (Elt F)),
    binary main_v19 main_v22 main_v23 (Host.divf : (⟨S1x128, .f32⟩ : BufTy).Contents (Elt F) → (⟨S1x128, .f32⟩ : BufTy).Contents (Elt F) → (⟨S1x128, .f32⟩ : BufTy).Contents (Elt F)),
    binary main_v23 main_arg2 main_v24 ((fun l r => Host.dotGeneral dot_S1x128_S128x1024_S1x1024_1_0_0_1_n_n none l r) : (⟨S1x128, .f32⟩ : BufTy).Contents (Elt F) → (⟨S128x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf,
    unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)),
    unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)),
    unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)),
    TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf,
    unary main_v66 main_v72 (broadcastInDim S1x1x1024 ![1, 2] bcast_S1x1024_S1x1x1024_1_2 : (⟨S1x1024, .f32⟩ : BufTy).Contents (Elt F) → (⟨S1x1x1024, .f32⟩ : BufTy).Contents (Elt F)) ]

/-- Up to the hidden row. -/
abbrev opsHead : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024,
    binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x128 [1, 0] · transposes_S128x2048_S2048x128_1_0) : (⟨S128x2048, .f32⟩ : BufTy).Contents (Elt F) → (⟨S2048x128, .f32⟩ : BufTy).Contents (Elt F)),
    binary main_v8 main_v9 main_v10 ((fun l r => Host.dotGeneral dot_S1x2048_S2048x128_S1x128_1_0_0_1_n_n none l r) : (⟨S1x2048, .f32⟩ : BufTy).Contents (Elt F) → (⟨S2048x128, .f32⟩ : BufTy).Contents (Elt F) → (⟨S1x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    binary main_v10 main_v11 main_v12 (addf : (⟨S1x128, .f32⟩ : BufTy).Contents (Elt F) → (⟨S1x128, .f32⟩ : BufTy).Contents (Elt F) → (⟨S1x128, .f32⟩ : BufTy).Contents (Elt F)),
    nullary main_cst (constant S_ .f32 0xFF800000#32),
    binary main_v12 main_cst main_v13 ((fun x v => Host.reduce FloatOps.maximumf x v reducesTo_S1x128_S1_d1 h_S_) : (⟨S1x128, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x128 ![0, 1] bcast_S1x1_S1x128_0_1 : (⟨S1x1, .f32⟩ : BufTy).Contents (Elt F) → (⟨S1x128, .f32⟩ : BufTy).Contents (Elt F)),
    binary main_v12 main_v17 main_v18 (subf : (⟨S1x128, .f32⟩ : BufTy).Contents (Elt F) → (⟨S1x128, .f32⟩ : BufTy).Contents (Elt F) → (⟨S1x128, .f32⟩ : BufTy).Contents (Elt F)),
    unary main_v18 main_v19 (Host.exp : (⟨S1x128, .f32⟩ : BufTy).Contents (Elt F) → (⟨S1x128, .f32⟩ : BufTy).Contents (Elt F)),
    nullary main_cst_2 (constant S_ .f32 0x00000000#32),
    binary main_v19 main_cst_2 main_v20 ((fun x v => Host.reduceAdd x v reducesTo_S1x128_S1_d1 h_S_) : (⟨S1x128, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x128 ![0, 1] bcast_S1x1_S1x128_0_1 : (⟨S1x1, .f32⟩ : BufTy).Contents (Elt F) → (⟨S1x128, .f32⟩ : BufTy).Contents (Elt F)),
    binary main_v19 main_v22 main_v23 (Host.divf : (⟨S1x128, .f32⟩ : BufTy).Contents (Elt F) → (⟨S1x128, .f32⟩ : BufTy).Contents (Elt F) → (⟨S1x128, .f32⟩ : BufTy).Contents (Elt F)),
    binary main_v23 main_arg2 main_v24 ((fun l r => Host.dotGeneral dot_S1x128_S128x1024_S1x1024_1_0_0_1_n_n none l r) : (⟨S1x128, .f32⟩ : BufTy).Contents (Elt F) → (⟨S128x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf,
    unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)),
    unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)) ]

/-- The logits. -/
abbrev opsMid : List (HloOp τ sig (Elt F)) :=
  [ unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)) ]

/-- The log-softmax, and the hidden row's leading axis. -/
abbrev opsTail : List (HloOp τ sig (Elt F)) :=
  [ TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf,
    unary main_v66 main_v72 (broadcastInDim S1x1x1024 ![1, 2] bcast_S1x1024_S1x1x1024_1_2 : (⟨S1x1024, .f32⟩ : BufTy).Contents (Elt F) → (⟨S1x1x1024, .f32⟩ : BufTy).Contents (Elt F)) ]

set_option maxRecDepth 8192 in
set_option maxHeartbeats 4000000 in
theorem main_eq (c : Dev nD) : main (F := F) c = seq ops := rfl

set_option maxRecDepth 8192 in
theorem ops_split : (ops : List (HloOp τ sig (Elt F))) = opsHead ++ (opsMid ++ opsTail) := rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩

/-- Running two stretches one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole line is the last twenty operations run from what the first stretch leaves. -/
theorem after_ops (V : Valuation τ sig (Elt F)) : after ops V = after (opsMid ++ opsTail) (after opsHead V) := by
  rw [ops_split, after_append]

/-! ## The results, over what the first stretch leaves -/

/-- The logits as the reference spells them: the hidden row times the transposed matrix, plus the bias along the row. -/
def midLogits (h : FVec F S1x1024 .f32) (W : FVec F S50257x1024 .f32) (b : FVec F S50257 .f32) : FVec F S1x50257 .f32 :=
  addf (Host.dotGeneral dot_S1x1024_S1024x50257_S1x50257_1_0_0_1_n_n none h (transpose S1024x50257 [1, 0] W transposes_S50257x1024_S1024x50257_1_0))
    (broadcastInDim S1x50257 ![1] bcast_S50257_S1x50257_1 b)

/-- The host's log-softmax of a row. -/
def logSoftmax (z : FVec F S1x50257 .f32) : FVec F S1x50257 .f32 :=
  subf
    (subf z (broadcastInDim S1x50257 ![0, 1] bcast_S1x1_S1x50257_0_1 (broadcastInDim S1x1 ![0] bcast_S1_S1x1_0
      (maximumf (broadcastInDim S1 ![] bcast_S_S1 (constant S_ .f32 0xFF800000#32))
        (Host.reduce FloatOps.maximumf z (constant S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd (Host.exp
        (subf z (broadcastInDim S1x50257 ![0, 1] bcast_S1x1_S1x50257_0_1 (broadcastInDim S1x1 ![0] bcast_S1_S1x1_0
          (maximumf (broadcastInDim S1 ![] bcast_S_S1 (constant S_ .f32 0xFF800000#32))
            (Host.reduce FloatOps.maximumf z (constant S_ .f32 0xFF800000#32) reducesTo_S1x50257_S1_d1 h_S_))))))
        (constant S_ .f32 0x00000000#32) reducesTo_S1x50257_S1_d1 h_S_))))

set_option maxHeartbeats 4000000 in
theorem tail_hidden (V : Valuation τ sig (Elt F)) :
    after (opsMid ++ opsTail) V (Proc.devRef .tc main_v72)
      = broadcastInDim S1x1x1024 ![1, 2] bcast_S1x1024_S1x1x1024_1_2 (V (Proc.devRef .tc main_v66)) := by
  simp only [opsMid, opsTail, List.cons_append, List.nil_append]
  after_results_simp

set_option maxHeartbeats 4000000 in
theorem tail_attn (V : Valuation τ sig (Elt F)) :
    after (opsMid ++ opsTail) V (Proc.devRef .tc main_v23) = V (Proc.devRef .tc main_v23) := by
  simp only [opsMid, opsTail, List.cons_append, List.nil_append]
  after_results_simp

/-! ## The arguments are never written -/

set_option maxHeartbeats 4000000 in
theorem head_arg12 (V : Valuation τ sig (Elt F)) : after opsHead V (Proc.devRef .tc main_arg12) = V (Proc.devRef .tc main_arg12) := by
  after_results_simp
set_option maxHeartbeats 4000000 in
theorem head_arg13 (V : Valuation τ sig (Elt F)) : after opsHead V (Proc.devRef .tc main_arg13) = V (Proc.devRef .tc main_arg13) := by
  after_results_simp

set_option maxHeartbeats 4000000 in
theorem kept_arg0 (V : Valuation τ sig (Elt F)) : after ops V (Proc.devRef .tc main_arg0) = V (Proc.devRef .tc main_arg0) := by
  after_results_simp
set_option maxHeartbeats 4000000 in
theorem kept_arg1 (V : Valuation τ sig (Elt F)) : after ops V (Proc.devRef .tc main_arg1) = V (Proc.devRef .tc main_arg1) := by
  after_results_simp
set_option maxHeartbeats 4000000 in
theorem kept_arg2 (V : Valuation τ sig (Elt F)) : after ops V (Proc.devRef .tc main_arg2) = V (Proc.devRef .tc main_arg2) := by
  after_results_simp
set_option maxHeartbeats 4000000 in
theorem kept_arg3 (V : Valuation τ sig (Elt F)) : after ops V (Proc.devRef .tc main_arg3) = V (Proc.devRef .tc main_arg3) := by
  after_results_simp
set_option maxHeartbeats 4000000 in
theorem kept_arg4 (V : Valuation τ sig (Elt F)) : after ops V (Proc.devRef .tc main_arg4) = V (Proc.devRef .tc main_arg4) := by
  after_results_simp
set_option maxHeartbeats 4000000 in
theorem kept_arg5 (V : Valuation τ sig (Elt F)) : after ops V (Proc.devRef .tc main_arg5) = V (Proc.devRef .tc main_arg5) := by
  after_results_simp
set_option maxHeartbeats 4000000 in
theorem kept_arg6 (V : Valuation τ sig (Elt F)) : after ops V (Proc.devRef .tc main_arg6) = V (Proc.devRef .tc main_arg6) := by
  after_results_simp
set_option maxHeartbeats 4000000 in
theorem kept_arg7 (V : Valuation τ sig (Elt F)) : after ops V (Proc.devRef .tc main_arg7) = V (Proc.devRef .tc main_arg7) := by
  after_results_simp
set_option maxHeartbeats 4000000 in
theorem kept_arg8 (V : Valuation τ sig (Elt F)) : after ops V (Proc.devRef .tc main_arg8) = V (Proc.devRef .tc main_arg8) := by
  after_results_simp
set_option maxHeartbeats 4000000 in
theorem kept_arg9 (V : Valuation τ sig (Elt F)) : after ops V (Proc.devRef .tc main_arg9) = V (Proc.devRef .tc main_arg9) := by
  after_results_simp
set_option maxHeartbeats 4000000 in
theorem kept_arg10 (V : Valuation τ sig (Elt F)) : after ops V (Proc.devRef .tc main_arg10) = V (Proc.devRef .tc main_arg10) := by
  after_results_simp
set_option maxHeartbeats 4000000 in
theorem kept_arg11 (V : Valuation τ sig (Elt F)) : after ops V (Proc.devRef .tc main_arg11) = V (Proc.devRef .tc main_arg11) := by
  after_results_simp
set_option maxHeartbeats 4000000 in
theorem kept_arg12 (V : Valuation τ sig (Elt F)) : after ops V (Proc.devRef .tc main_arg12) = V (Proc.devRef .tc main_arg12) := by
  after_results_simp
set_option maxHeartbeats 4000000 in
theorem kept_arg13 (V : Valuation τ sig (Elt F)) : after ops V (Proc.devRef .tc main_arg13) = V (Proc.devRef .tc main_arg13) := by
  after_results_simp

/-! ## The run -/

/-- Every weakly fair execution of the reference ends with each buffer at the line's fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Hand

end
-- ==== Proof.RefTail.lean ====
/-
  The reference's last twenty operations, read over whatever the first seventy-nine leave: the first result is the
  log-softmax of the logits h Wᵀ + b.
-/
import proofs.«172690_j36335423324794_2_alg».proof.Proof.RefRun

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Contents carried to a buffer's own type and back are the contents. -/
theorem ofBuf_toBuf {T : BufTy} (x : TRef sig T) (v : T.Contents (Elt F)) : x.ofBuf (x.toBuf v) = v := by
  unfold TRef.ofBuf TRef.toBuf
  rw [cast_cast]
  exact cast_eq _ _

set_option maxHeartbeats 4000000 in
/-- The last twenty operations at the first result, the two ends still at the buffers' own types. -/
theorem tail_out_raw (V : Valuation τ sig (Elt F)) :
    after (opsMid ++ opsTail) V (Proc.devRef .tc main_v71)
      = TRef.toBuf (Val := Elt F) (TRef.of (T := ⟨S1x50257, .f32⟩) main_v71) (logSoftmax (TRef.ofBuf (Val := Elt F) (TRef.of (T := ⟨S1x50257, .f32⟩) main_v70)
          (midLogits (V (Proc.devRef .tc main_v66)) (V (Proc.devRef .tc main_arg12)) (V (Proc.devRef .tc main_arg13))))) := by
  simp only [opsMid, opsTail, List.cons_append, List.nil_append]
  after_results_simp
  simp only [ofBuf_toBuf]
  rfl

theorem toBuf_v71 (x : FVec F S1x50257 .f32) : TRef.toBuf (Val := Elt F) (TRef.of (T := ⟨S1x50257, .f32⟩) main_v71) x = x := rfl
theorem ofBuf_v70 (x : FVec F S1x50257 .f32) : TRef.ofBuf (Val := Elt F) (TRef.of (T := ⟨S1x50257, .f32⟩) main_v70) x = x := rfl

theorem tail_out (V : Valuation τ sig (Elt F)) :
    after (opsMid ++ opsTail) V (Proc.devRef .tc main_v71)
      = logSoftmax (midLogits (V (Proc.devRef .tc main_v66)) (V (Proc.devRef .tc main_arg12)) (V (Proc.devRef .tc main_arg13))) := by
  rw [tail_out_raw, toBuf_v71, ofBuf_v70]

end Cert.ReferenceIdeal.Hand

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.Logits.lean ====
/-
  The two spellings of the logits are one function. The kernel's array holds, at column j, the sum over k of h k * W j k plus
  entry j of the bias laid out as a row by a reshape; the reference multiplies the hidden row by the TRANSPOSED matrix with a
  plain rows-by-columns product and adds the bias broadcast along the row. Column by column both are the same sum of the
  same products in the same order plus the same bias entry: no law of arithmetic is used, only where each operand is read.
-/
import proofs.«172690_j36335423324794_2_alg».proof.Proof.IdealKernel
import proofs.«172690_j36335423324794_2_alg».proof.Proof.RefRun
import proofs.«172690_j36335423324794_2_alg».proof.Proof.LibPlainDot
import Idealize.ShloMosaic.Lib.Pipeline.Value
import Idealize.ShloMosaic.Lib.ValueIdx
import Idealize.ShloMosaic.PureOps.Ideal.Laws

noncomputable section

namespace Cert.Proof.Hand

open Idealize.ShloMosaic Idealize.ShloMosaic.ValueIdx
open scoped BigOperators

theorem logits_eq (h : FVec Ideal Cert.KernelIdeal.S1x1024 .f32) (W : FVec Ideal Cert.KernelIdeal.S50257x1024 .f32)
    (b : FVec Ideal Cert.KernelIdeal.S50257 .f32) :
    Cert.KernelIdeal.Hand.logits h W (shapeCast Cert.KernelIdeal.S1x50257 b Cert.KernelIdeal.Gen.shapeCasts_S50257_S1x50257)
      = Cert.ReferenceIdeal.Hand.midLogits (F := Ideal) h W b := by
  funext j
  obtain ⟨p, q, rfl⟩ : ∃ (p : Fin 1) (q : Fin 50257), j = ix2 p q := ⟨j 0, j 1, eq_ix2 j⟩
  obtain rfl : p = 0 := Subsingleton.elim _ _
  unfold Cert.KernelIdeal.Hand.logits Cert.ReferenceIdeal.Hand.midLogits
  refine Eq.trans ?_ (addf_apply _ _ _).symm
  refine congrArg₂ (· + ·) ?_ ?_
  · refine Eq.trans ?_ (Cert.LibPlainDot.dotGeneral_apply Cert.ReferenceIdeal.dot_S1x1024_S1024x50257_S1x50257_1_0_0_1_n_n
      ⟨rfl, rfl, rfl, rfl, rfl, rfl⟩ none .single h _ 0 q).symm
    refine Finset.sum_congr rfl fun k _ => congrArg (h (ix2 0 k) * ·) ?_
    exact (transpose_apply [1, 0] W Cert.ReferenceIdeal.Gen.transposes_S50257x1024_S1024x50257_1_0 (ix2 k q) (ix2 q k) (by
      intro a
      match a with
      | ⟨0, _⟩ => rfl
      | ⟨1, _⟩ => rfl)).symm
  · refine (shapeCast_apply b Cert.KernelIdeal.Gen.shapeCasts_S50257_S1x50257 (ix2 0 q) (ix1 q) (by
      rw [Shape.rowMajor_val_two, Shape.rowMajor_val_one]; show q.val = 0 * 50257 + q.val; omega)).trans ?_
    exact (broadcastInDim_apply ![1] Cert.ReferenceIdeal.Gen.bcast_S50257_S1x50257_1 b (ix2 0 q) (ix1 q) (by
      intro a
      match a with
      | ⟨0, _⟩ => show q.val = if 50257 = 1 then 0 else q.val; rfl)).symm

end Cert.Proof.Hand

end
-- ==== Proof.Prefix.lean ====
/-
  The two programs begin with the same host arithmetic — the embedding row, the attention weights, the combined and
  rectified row, the gated recurrent step — printed twice, once in each program's own vocabulary of buffers and shape
  facts. Run from buffers that agree on the twelve arguments this arithmetic reads, both leave the same hidden row and the
  same attention weights: each side's fold is evaluated to its composed term of the arguments, and the two terms are the
  same operations of the same operands.
-/
import proofs.«172690_j36335423324794_2_alg».proof.Proof.Gen.KernelIdeal.Frame
import proofs.«172690_j36335423324794_2_alg».proof.Proof.RefRun
import Idealize.ShloMosaic.Lib.StableHlo.Run
import Idealize.ShloMosaic.PureOps.Ideal

set_option maxRecDepth 16384

noncomputable section

namespace Cert.Proof.Hand

open Idealize.ShloMosaic Idealize.ShloMosaic.TcCoe Idealize.SL.Sem Idealize.ShloMosaic.StableHlo

/-- Two pieces joined along an axis depend on the pieces only. -/
theorem concat2_congr {α : Type} {t s1 s2 : Shape} {a : Fin t.rank} {x x' : s1.Idx → α} {y y' : s2.Idx → α}
    {h : Shape.Concatenates [s1, s2] t a} (hx : x = x') (hy : y = y') :
    concatenate t a [⟨s1, x⟩, ⟨s2, y⟩] h = concatenate t a [⟨s1, x'⟩, ⟨s2, y'⟩] h := by subst hx hy; rfl

attribute [local congr] concat2_congr

/-- Contents carried to a buffer's own type and back are the contents. -/
theorem ofBuf_toBuf' {sig : RefSig} {T : BufTy} (x : TRef sig T) (v : T.Contents (Elt Ideal)) : x.ofBuf (x.toBuf v) = v := by
  unfold TRef.ofBuf TRef.toBuf
  rw [cast_cast]
  exact cast_eq _ _

/-- The kernel program's host operations before its kernel. -/
abbrev headK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2]

set_option maxHeartbeats 40000000 in
/-- The hidden row. -/
theorem hidden_bridge (VK : Valuation Cert.KernelIdeal.τ Cert.KernelIdeal.sig (Elt Ideal))
    (VR : Valuation Cert.ReferenceIdeal.τ Cert.ReferenceIdeal.sig (Elt Ideal))
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2))
    (h3 : VK (Proc.devRef .tc Cert.KernelIdeal.main_arg3) = VR (Proc.devRef .tc Cert.ReferenceIdeal.main_arg3))
    (h4 : VK (Proc.devRef .tc Cert.KernelIdeal.main_arg4) = VR (Proc.devRef .tc Cert.ReferenceIdeal.main_arg4))
    (h5 : VK (Proc.devRef .tc Cert.KernelIdeal.main_arg5) = VR (Proc.devRef .tc Cert.ReferenceIdeal.main_arg5))
    (h6 : VK (Proc.devRef .tc Cert.KernelIdeal.main_arg6) = VR (Proc.devRef .tc Cert.ReferenceIdeal.main_arg6))
    (h7 : VK (Proc.devRef .tc Cert.KernelIdeal.main_arg7) = VR (Proc.devRef .tc Cert.ReferenceIdeal.main_arg7))
    (h8 : VK (Proc.devRef .tc Cert.KernelIdeal.main_arg8) = VR (Proc.devRef .tc Cert.ReferenceIdeal.main_arg8))
    (h9 : VK (Proc.devRef .tc Cert.KernelIdeal.main_arg9) = VR (Proc.devRef .tc Cert.ReferenceIdeal.main_arg9))
    (h10 : VK (Proc.devRef .tc Cert.KernelIdeal.main_arg10) = VR (Proc.devRef .tc Cert.ReferenceIdeal.main_arg10))
    (h11 : VK (Proc.devRef .tc Cert.KernelIdeal.main_arg11) = VR (Proc.devRef .tc Cert.ReferenceIdeal.main_arg11)) :
    StableHlo.after headK VK (Proc.devRef .tc Cert.KernelIdeal.main_v66)
      = StableHlo.after (Cert.ReferenceIdeal.Hand.opsHead (F := Ideal)) VR (Proc.devRef .tc Cert.ReferenceIdeal.main_v66) := by
  simp only [headK, Cert.KernelIdeal.Gen.hostOps0, Cert.KernelIdeal.Gen.hostOps0_1, Cert.KernelIdeal.Gen.hostOps0_2,
    List.flatten_cons, List.flatten_nil, List.append_nil, List.cons_append, List.nil_append, Cert.ReferenceIdeal.Hand.opsHead]
  after_results_simp
  simp only [h0, h1, h2, h3, h4, h5, h6, h7, h8, h9, h10, h11, ofBuf_toBuf']
  rfl

set_option maxHeartbeats 40000000 in
/-- The attention weights. -/
theorem attn_bridge (VK : Valuation Cert.KernelIdeal.τ Cert.KernelIdeal.sig (Elt Ideal))
    (VR : Valuation Cert.ReferenceIdeal.τ Cert.ReferenceIdeal.sig (Elt Ideal))
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2))
    (h3 : VK (Proc.devRef .tc Cert.KernelIdeal.main_arg3) = VR (Proc.devRef .tc Cert.ReferenceIdeal.main_arg3))
    (h4 : VK (Proc.devRef .tc Cert.KernelIdeal.main_arg4) = VR (Proc.devRef .tc Cert.ReferenceIdeal.main_arg4))
    (h5 : VK (Proc.devRef .tc Cert.KernelIdeal.main_arg5) = VR (Proc.devRef .tc Cert.ReferenceIdeal.main_arg5))
    (h6 : VK (Proc.devRef .tc Cert.KernelIdeal.main_arg6) = VR (Proc.devRef .tc Cert.ReferenceIdeal.main_arg6))
    (h7 : VK (Proc.devRef .tc Cert.KernelIdeal.main_arg7) = VR (Proc.devRef .tc Cert.ReferenceIdeal.main_arg7))
    (h8 : VK (Proc.devRef .tc Cert.KernelIdeal.main_arg8) = VR (Proc.devRef .tc Cert.ReferenceIdeal.main_arg8))
    (h9 : VK (Proc.devRef .tc Cert.KernelIdeal.main_arg9) = VR (Proc.devRef .tc Cert.ReferenceIdeal.main_arg9))
    (h10 : VK (Proc.devRef .tc Cert.KernelIdeal.main_arg10) = VR (Proc.devRef .tc Cert.ReferenceIdeal.main_arg10))
    (h11 : VK (Proc.devRef .tc Cert.KernelIdeal.main_arg11) = VR (Proc.devRef .tc Cert.ReferenceIdeal.main_arg11)) :
    StableHlo.after headK VK (Proc.devRef .tc Cert.KernelIdeal.main_v23)
      = StableHlo.after (Cert.ReferenceIdeal.Hand.opsHead (F := Ideal)) VR (Proc.devRef .tc Cert.ReferenceIdeal.main_v23) := by
  simp only [headK, Cert.KernelIdeal.Gen.hostOps0, Cert.KernelIdeal.Gen.hostOps0_1, Cert.KernelIdeal.Gen.hostOps0_2,
    List.flatten_cons, List.flatten_nil, List.append_nil, List.cons_append, List.nil_append, Cert.ReferenceIdeal.Hand.opsHead]
  after_results_simp
  simp only [h0, h1, h2, h3, h4, h5, h6, h7, h8, h9, h10, h11, ofBuf_toBuf']
  rfl

end Cert.Proof.Hand

end
-- ==== Proof.Equal.lean ====
/-
  The certificate's claims. The two idealized programs compute the hidden row and the attention weights by the same host
  arithmetic of the same arguments; the kernel then leaves, column by column, the logits the reference forms by one
  product with the transposed matrix; both apply the same log-softmax. So the three results agree entry by entry.
  No law of the extended reals beyond 0 + x = x is used and the finiteness of the inputs is never opened.
-/
import proofs.«172690_j36335423324794_2_alg».proof.Defs
import proofs.«172690_j36335423324794_2_alg».proof.Proof.KernelFrame
import proofs.«172690_j36335423324794_2_alg».proof.Proof.IdealValue
import proofs.«172690_j36335423324794_2_alg».proof.Proof.RefTail
import proofs.«172690_j36335423324794_2_alg».proof.Proof.Logits
import proofs.«172690_j36335423324794_2_alg».proof.Proof.Prefix
import proofs.«172690_j36335423324794_2_alg».proof.Proof.Gen.Kernel
import proofs.«172690_j36335423324794_2_alg».proof.Proof.Gen.KernelIdeal
import proofs.«172690_j36335423324794_2_alg».proof.Proof.Gen.ReferenceIdeal
import proofs.«172690_j36335423324794_2_alg».proof.Proof.Gen.Pre_finite_inputs

set_option maxRecDepth 16384

noncomputable section

namespace Cert.Proof.Hand

open Idealize.ShloMosaic Idealize.ShloMosaic.TcCoe Idealize.SL.Sem Idealize.ShloMosaic.StableHlo

section Bridge

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))

set_option maxHeartbeats 4000000 in
/-- The bias row the kernel is launched on is the bias vector reshaped to one row. -/
theorem bias_row (c : Dev Cert.KernelIdeal.nD) :
    (Cert.KernelIdeal.Gen.V m c Cert.KernelIdeal.main_v67 : FVec Ideal Cert.KernelIdeal.S1x50257 .f32)
      = shapeCast Cert.KernelIdeal.S1x50257 (m ((c.tc : Thread Cert.KernelIdeal.nD Cert.KernelIdeal.τ).loc Cert.KernelIdeal.main_arg13)) Cert.KernelIdeal.Gen.shapeCasts_S50257_S1x50257 := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil, List.append_nil,
    List.cons_append, List.nil_append]
  after_results_simp
  rfl

include hag in
/-- The hidden row the kernel program computes is the one the reference computes. -/
theorem hidden_eq (c : Dev Cert.KernelIdeal.nD) :
    Cert.KernelIdeal.Gen.V m c Cert.KernelIdeal.main_v66
      = StableHlo.after (Cert.ReferenceIdeal.Hand.opsHead (F := Ideal)) (launchContents m' c) (Proc.devRef .tc Cert.ReferenceIdeal.main_v66) :=
  hidden_bridge (fun b => m (c, b)) (launchContents m' c)
    ((hag c).1).symm ((hag c).2.1).symm ((hag c).2.2.1).symm ((hag c).2.2.2.1).symm ((hag c).2.2.2.2.1).symm ((hag c).2.2.2.2.2.1).symm ((hag c).2.2.2.2.2.2.1).symm ((hag c).2.2.2.2.2.2.2.1).symm ((hag c).2.2.2.2.2.2.2.2.1).symm ((hag c).2.2.2.2.2.2.2.2.2.1).symm ((hag c).2.2.2.2.2.2.2.2.2.2.1).symm ((hag c).2.2.2.2.2.2.2.2.2.2.2.1).symm

include hag in
/-- So are the attention weights. -/
theorem attn_eq (c : Dev Cert.KernelIdeal.nD) :
    Cert.KernelIdeal.Gen.V m c Cert.KernelIdeal.main_v23
      = StableHlo.after (Cert.ReferenceIdeal.Hand.opsHead (F := Ideal)) (launchContents m' c) (Proc.devRef .tc Cert.ReferenceIdeal.main_v23) :=
  attn_bridge (fun b => m (c, b)) (launchContents m' c)
    ((hag c).1).symm ((hag c).2.1).symm ((hag c).2.2.1).symm ((hag c).2.2.2.1).symm ((hag c).2.2.2.2.1).symm ((hag c).2.2.2.2.2.1).symm ((hag c).2.2.2.2.2.2.1).symm ((hag c).2.2.2.2.2.2.2.1).symm ((hag c).2.2.2.2.2.2.2.2.1).symm ((hag c).2.2.2.2.2.2.2.2.2.1).symm ((hag c).2.2.2.2.2.2.2.2.2.2.1).symm ((hag c).2.2.2.2.2.2.2.2.2.2.2.1).symm

/-- The kernel program's first result, spelt with the reference's product and bias broadcast. -/
theorem out_eq (c : Dev Cert.KernelIdeal.nD) :
    Cert.KernelIdeal.Hand.logSoftmax (Cert.KernelIdeal.Hand.G m c)
      = Cert.ReferenceIdeal.Hand.logSoftmax (F := Ideal) (Cert.ReferenceIdeal.Hand.midLogits (F := Ideal) (Cert.KernelIdeal.Gen.V m c Cert.KernelIdeal.main_v66)
          (m ((c.tc : Thread Cert.KernelIdeal.nD Cert.KernelIdeal.τ).loc Cert.KernelIdeal.main_arg12)) (m ((c.tc : Thread Cert.KernelIdeal.nD Cert.KernelIdeal.τ).loc Cert.KernelIdeal.main_arg13))) := by
  unfold Cert.KernelIdeal.Hand.G
  rw [Cert.KernelIdeal.Gen.V_main_arg12, bias_row, logits_eq]
  rfl

end Bridge

/-! ## The claims -/

theorem frame_k : Cert.frame_Kernel := fun m ρ _ => Cert.Kernel.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun r h c => ⟨
      (h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _),
      (h c Cert.ReferenceIdeal.main_arg12).trans (Cert.ReferenceIdeal.Hand.kept_arg12 _),
      (h c Cert.ReferenceIdeal.main_arg13).trans (Cert.ReferenceIdeal.Hand.kept_arg13 _)⟩) (Cert.ReferenceIdeal.Hand.run_ops (F := Ideal) m ρ)

set_option maxHeartbeats 1000000 in
theorem algebraic : Cert.algebraic_KernelIdeal_ReferenceIdeal := by
  intro m ρ m' ρ' _ hag
  have hk := Cert.KernelIdeal.Hand.run_values m ρ
  refine ⟨_, _, _, hk, ?_⟩
  refine (θ_run Cert.ReferenceIdeal.defs _ _).mono (fun r h c => ?_) (Cert.ReferenceIdeal.Hand.run_ops (F := Ideal) m' ρ')
  have hH := hidden_eq m m' hag c
  have hA := attn_eq m m' hag c
  refine ⟨?_, ?_, ?_,
      (h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _),
      (h c Cert.ReferenceIdeal.main_arg12).trans (Cert.ReferenceIdeal.Hand.kept_arg12 _),
      (h c Cert.ReferenceIdeal.main_arg13).trans (Cert.ReferenceIdeal.Hand.kept_arg13 _)⟩
  · refine (h c Cert.ReferenceIdeal.main_v71).trans ?_
    rw [Cert.ReferenceIdeal.Hand.after_ops, Cert.ReferenceIdeal.Hand.tail_out, Cert.ReferenceIdeal.Hand.head_arg12, Cert.ReferenceIdeal.Hand.head_arg13, ← hH, out_eq m c]
    exact congrArg₂ (fun W b => Cert.ReferenceIdeal.Hand.logSoftmax (F := Ideal) (Cert.ReferenceIdeal.Hand.midLogits (F := Ideal) (Cert.KernelIdeal.Gen.V m c Cert.KernelIdeal.main_v66) W b))
      ((hag c).2.2.2.2.2.2.2.2.2.2.2.2.1) ((hag c).2.2.2.2.2.2.2.2.2.2.2.2.2)
  · refine (h c Cert.ReferenceIdeal.main_v72).trans ?_
    rw [Cert.ReferenceIdeal.Hand.after_ops, Cert.ReferenceIdeal.Hand.tail_hidden, ← hH]
  · refine (h c Cert.ReferenceIdeal.main_v23).trans ?_
    rw [Cert.ReferenceIdeal.Hand.after_ops, Cert.ReferenceIdeal.Hand.tail_attn, ← hA]

end Cert.Proof.Hand

end
-- ==== Proof.lean ====
/-
  The proof of the certificate's claim. Three frames — each program runs to its end, faults nowhere and leaves its fourteen
  argument arrays as they were —, the trivial statement that the idealized kernel program is the word-level one's own text
  read over the extended reals (the idealization rewrote nothing), and the equality of the two idealized programs' three
  results, entry by entry: Proof/Equal.lean, over the kernel's frame at the word level (Proof/KernelFrame.lean), the
  idealized kernel's run with its logits array in closed form (Proof/IdealKernel.lean, Proof/IdealValue.lean), the
  reference's run (Proof/RefRun.lean, Proof/RefTail.lean), the shared host arithmetic (Proof/Prefix.lean) and the two
  spellings of the logits (Proof/Logits.lean).
-/
import proofs.«172690_j36335423324794_2_alg».proof.Defs
import proofs.«172690_j36335423324794_2_alg».proof.Proof.Equal
import proofs.«172690_j36335423324794_2_alg».proof.Proof.Gen.Kernel
import proofs.«172690_j36335423324794_2_alg».proof.Proof.Gen.KernelIdeal
import proofs.«172690_j36335423324794_2_alg».proof.Proof.Gen.ReferenceIdeal
import proofs.«172690_j36335423324794_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Hand.frame_k, Hand.frame_ki, Hand.frame_ri, trivial, Hand.algebraic⟩

end Cert.Proof

end
